-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S2x1600000 32) (main_arg2 : FVec F S64x64 .f32) (main_arg3 : FVec F S64x64 .f32) (main_arg4 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S2000x64 : Shape := ⟨2, ![2000, 64]⟩

abbrev nBuf : Space → Nat
  | .hbm => 24
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S1x64, .f32⟩
  | .hbm, ⟨23, _⟩ => ⟨S100000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S64x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S100000x64.size a
  hwx0_0 : ∀ i : grid0.Coords, EltTy.bits .f32 = 32 ∨ (Rect.block (s := S100000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S100000x64.size a
  hwx0_1 : ∀ i : grid0.Coords, EltTy.bits .f32 = 32 ∨ (Rect.block (s := S100000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v13) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩

abbrev nBuf : Space → Nat
  | .hbm => 28
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64x64, .f32⟩
  | .hbm, ⟨4, _⟩ => ⟨S64, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .hbm, ⟨22, _⟩ => ⟨S100000x64, .f32⟩
  | .hbm, ⟨23, _⟩ => ⟨S100000x64, .f32⟩
  | .hbm, ⟨24, _⟩ => ⟨S100000x64, .f32⟩
  | .hbm, ⟨25, _⟩ => ⟨S1x64, .f32⟩
  | .hbm, ⟨26, _⟩ => ⟨S100000x64, .f32⟩
  | .hbm, ⟨27, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Layer.lean ====
/-
  One graph-convolution layer, as a function of its arrays.

  For node features `x : [100000, 64]`, an aggregate `a : [100000, 64]` (the sum over incoming edges of the
  source nodes' feature rows), two square matrices `w s : [64, 64]` and a bias row `b : [64]`, the layer's output at
  node `p` and feature `q` is

      (∑ k, a[p, k] · w[k, q]  +  ∑ k, x[p, k] · s[k, q])  +  b[q]

  over the extended reals.  Both programs compute exactly this grouping — two length-64 inner products, added, then
  the bias — so no law of arithmetic beyond reading each operation at an entry is needed to join them, and in
  particular nothing here asks the entries to be finite.
-/
import Idealize.ShloMosaic.PureOps.Ideal
import Idealize.ShloMosaic.Lib.ValueIdx

noncomputable section

namespace Cert.Layer

open Idealize.ShloMosaic Idealize.ShloMosaic.ValueIdx

/-- The shape of the node-feature arrays. -/
abbrev Nodes : Shape := ⟨2, ![100000, 64]⟩
/-- The shape of the two square matrices. -/
abbrev Mat : Shape := ⟨2, ![64, 64]⟩
/-- The shape of the bias row. -/
abbrev Row : Shape := ⟨1, ![64]⟩

/-- The layer's output at node `p`, feature `q`: the aggregate's row `p` against column `q` of `w`, plus the node's own
    row `p` against column `q` of `s`, plus the bias at `q`. -/
def entry (a x : FVec Ideal Nodes .f32) (w s : FVec Ideal Mat .f32) (b : FVec Ideal Row .f32)
    (p : Fin 100000) (q : Fin 64) : EReal :=
  (∑ k : Fin 64, a (ix2 p k) * w (ix2 k q) + ∑ k : Fin 64, x (ix2 p k) * s (ix2 k q)) + b (ix1 q)

/-- The layer's whole output array. -/
def out (a x : FVec Ideal Nodes .f32) (w s : FVec Ideal Mat .f32) (b : FVec Ideal Row .f32) :
    FVec Ideal Nodes .f32 :=
  fun i => entry a x w s b (i 0) (i 1)

theorem out_apply (a x : FVec Ideal Nodes .f32) (w s : FVec Ideal Mat .f32) (b : FVec Ideal Row .f32)
    (p : Fin 100000) (q : Fin 64) : out a x w s b (ix2 p q) = entry a x w s b p q := rfl

end Cert.Layer

end
-- ==== Proof.Tile.lean ====
/-
  What the kernel body computes on one tile of 2000 nodes, read at an entry.

  The body loads a tile `a` of the aggregate and the matching tile `x` of the node features (2000 rows each), the two
  whole 64 × 64 matrices `w`, `s` and the bias as a 1 × 64 row `b`; it narrows the four matrices' format (the identity
  on extended reals), multiplies `a · w` and `x · s` into zero accumulators, adds the two products and adds the bias row
  broadcast down the 2000 rows.  At row `p`, column `q` of the tile that is

      (∑ k, a[p, k] · w[k, q]  +  ∑ k, x[p, k] · s[k, q])  +  b[0, q].
-/
import proofs.«107754_j50912542326918_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx

/-- The tile product's dimension numbers: rows × contraction times contraction × columns. -/
local notation "D" => dot_S2000x64_S64x64_S2000x64_1_0_0_1_n_n

theorem lhs_row (j : S2000x64.Idx) (κ : (D).contr.Idx) : ((D).lhsIdx j κ 0).val = (j 0).val := by
  unfold DotDims.lhsIdx
  rw [dif_neg (show ¬(0 : Fin S2000x64.rank) ∈ (D).lhsBatch by decide),
    dif_pos (show (0 : Fin S2000x64.rank) ∈ (D).lhsNonContracting by decide)]
  rfl

theorem rhs_col (j : S2000x64.Idx) (κ : (D).contr.Idx) : ((D).rhsIdx j κ 1).val = (j 1).val := by
  unfold DotDims.rhsIdx
  rw [dif_neg (show ¬(1 : Fin S64x64.rank) ∈ (D).rhsBatch by decide),
    dif_pos (show (1 : Fin S64x64.rank) ∈ (D).rhsNonContracting by decide)]
  rfl

/-- A tile times a square matrix, into the zero accumulator, at row `p` and column `q`: the inner product of the
    tile's row `p` with the matrix's column `q`. -/
theorem product_entry {φ₁ φ₂ : FTy} (l : FVec Ideal S2000x64 φ₁) (r : FVec Ideal S64x64 φ₂) (p : Fin 2000) (q : Fin 64) :
    matmul (D) none l r (constant (F := Ideal) S2000x64 .f32 0x00000000#32) (ix2 p q)
      = ∑ k : Fin 64, l (ix2 p k) * r (ix2 k q) := by
  refine (Ideal.matmul_constant_zero_apply (D) none l r (ix2 p q)).trans ?_
  rw [← Equiv.sum_comp (contrEquiv1 (D) 64 rfl rfl).symm]
  refine Finset.sum_congr rfl fun k _ => ?_
  have hk := contrEquiv1_symm_val (D) 64 rfl rfl k
  have el : (D).lhsIdx (ix2 p q) ((contrEquiv1 (D) 64 rfl rfl).symm k) = ix2 p k := funext fun a => Fin.ext (by
    match a with
    | ⟨0, _⟩ => exact lhs_row _ _
    | ⟨1, _⟩ => exact ((D).lhsIdx_val_of_single rfl _ _).trans hk)
  have er : (D).rhsIdx (ix2 p q) ((contrEquiv1 (D) 64 rfl rfl).symm k) = ix2 k q := funext fun a => Fin.ext (by
    match a with
    | ⟨0, _⟩ => exact ((D).rhsIdx_val_of_single rfl _ _).trans hk
    | ⟨1, _⟩ => exact rhs_col _ _)
  rw [el, er]

/-- The bias row broadcast down the tile, at row `p` and column `q`: the row's entry `q`. -/
theorem bias_entry (b : FVec Ideal S1x64 .f32) (p : Fin 2000) (q : Fin 64) :
    broadcastTo S2000x64 (shapeCast S1x64 b shapeCasts_S1x64_S1x64) broadcasts_S1x64_S2000x64 (ix2 p q)
      = b (ix2 0 q) := by
  rw [shapeCast_self]
  exact broadcastTo_apply b broadcasts_S1x64_S2000x64 (ix2 p q) (ix2 0 q) (fun a => by
    match a with
    | ⟨0, _⟩ => show (0 : Nat) = if (1 : Nat) = 1 then 0 else _; rw [if_pos rfl]
    | ⟨1, _⟩ => show q.val = if (64 : Nat) = 1 then 0 else q.val; rw [if_neg (by decide)])

/-- THE TILE'S RESULT at row `p`, column `q`. -/
theorem pay_entry (a x : Vec Ideal S2000x64 .f32) (w s : Vec Ideal S64x64 .f32) (b : Vec Ideal S1x64 .f32)
    (p : Fin 2000) (q : Fin 64) :
    k0_pay1 (F := Ideal) a x w s b (ix2 p q)
      = (∑ k : Fin 64, a (ix2 p k) * w (ix2 k q) + ∑ k : Fin 64, x (ix2 p k) * s (ix2 k q)) + b (ix2 0 q) := by
  unfold k0_pay1
  refine (addf_apply _ _ _).trans ?_
  refine congrArg₂ (· + ·) ((addf_apply _ _ _).trans (congrArg₂ (· + ·) ?_ ?_)) (bias_entry b p q)
  · refine (product_entry _ _ p q).trans ?_
    rw [shapeCast_self]
    rfl
  · exact product_entry _ _ p q

end Cert.KernelIdeal.Tile

end
-- ==== Proof.Found.lean ====
/-
  What the region finds in the two arrays that host operations wrote before it.

  Before the kernel is launched the program splits the edge list into destinations (row 0) and sources (row 1), wraps
  negative source indices by the node count, gathers the source nodes' feature rows and scatter-adds them at the
  destinations into a zero array: the aggregate, which window 0 stages.  It also reshapes the bias `[64]` to a row
  `[1, 64]`, which window 4 stages.  The aggregate is kept as ONE function of the node features and the edge list and
  is never opened: the reference forms it by the same operations.
-/
import proofs.«107754_j50912542326918_2_alg».proof.Proof.Gen.KernelIdeal.Frame
import Idealize.ShloMosaic.Lib.StableHlo.Run
import Idealize.ShloMosaic.Lib.ValueIdx
import Idealize.ShloMosaic.Lib.Pipeline.Value

noncomputable section

namespace Cert.KernelIdeal.Found

open Cert.KernelIdeal Cert.KernelIdeal.Gen Idealize.ShloMosaic Idealize.ShloMosaic.TcCoe Idealize.SL.Sem
open Idealize.ShloMosaic.StableHlo Idealize.ShloMosaic.ValueIdx

variable {F : FTy → Type} [FloatOps F]

/-- The edges' source nodes, a negative index wrapped by the node count. -/
def sources (e : (⟨S2x1600000, .i32⟩ : BufTy).Contents (Elt F)) : (⟨S1600000, .i32⟩ : BufTy).Contents (Elt F) :=
  select (cmpi .slt (shapeCast _ (extractStridedSlice S1x1600000 ![1, 0] e slices_S2x1600000_S1x1600000_1_0) shapeCasts_S1x1600000_S1600000) (broadcastInDim S1600000 ![] bcast_S_S1600000 (constantI S_ 32 0#32)))
    (addi (shapeCast _ (extractStridedSlice S1x1600000 ![1, 0] e slices_S2x1600000_S1x1600000_1_0) shapeCasts_S1x1600000_S1600000) (broadcastInDim S1600000 ![] bcast_S_S1600000 (constantI S_ 32 100000#32)))
    (shapeCast _ (extractStridedSlice S1x1600000 ![1, 0] e slices_S2x1600000_S1x1600000_1_0) shapeCasts_S1x1600000_S1600000)

/-- THE AGGREGATE: the source nodes' feature rows, summed at each edge's destination node, from zero. -/
def aggregate (x : (⟨S100000x64, .f32⟩ : BufTy).Contents (Elt F)) (e : (⟨S2x1600000, .i32⟩ : BufTy).Contents (Elt F)) :
    (⟨S100000x64, .f32⟩ : BufTy).Contents (Elt F) :=
  Host.scatterAdd scatter_S100000x64_S1600000x1_S1600000x64_1_0_0_1
    (broadcastInDim S100000x64 ![] bcast_S_S100000x64 (constant (F := F) S_ .f32 0x00000000#32))
    (broadcastInDim S1600000x1 ![0] bcast_S1600000_S1600000x1_0
      (shapeCast _ (extractStridedSlice S1x1600000 ![0, 0] e slices_S2x1600000_S1x1600000_0_0) shapeCasts_S1x1600000_S1600000))
    (Host.gather gather_S100000x64_S1600000x1_S1600000x64_1_0_n_n_0_1_164 x
      (broadcastInDim S1600000x1 ![0] bcast_S1600000_S1600000x1_0 (sources (F := F) e)))

variable (m : (ℓ : Loc nD τ sig) → Buf (Elt F) ℓ)

/-- Window 0's array, as the region finds it, is the aggregate of the launch contents of the node features and the
    edge list. -/
theorem agg_found (c : Dev nD) :
    V m c main_v13 = aggregate (F := F) (m ((c.tc : Thread nD τ).loc main_arg0)) (m ((c.tc : Thread nD τ).loc main_arg1)) := by
  dsimp only [V, hostOps0]
  after_results
  rfl

/-- Window 4's array, as the region finds it, is the bias reshaped to one row. -/
theorem bias_found (c : Dev nD) :
    V m c main_v14 = shapeCast _ (m ((c.tc : Thread nD τ).loc main_arg4)) shapeCasts_S64_S1x64 := by
  dsimp only [V, hostOps0]
  after_results
  rfl

/-- The reshaped bias row at column `q` is the bias at `q`. -/
theorem bias_row {α : Type} (b : S64.Idx → α) (q : Fin 64) :
    shapeCast S1x64 b shapeCasts_S64_S1x64 (ix2 0 q) = b (ix1 q) :=
  shapeCast_apply b shapeCasts_S64_S1x64 (ix2 0 q) (ix1 q)
    (by rewrite [Shape.rowMajor_val_two, Shape.rowMajor_val_one]; show q.val = 0 * 64 + q.val; omega)

end Cert.KernelIdeal.Found

end
-- ==== Proof.Cover.lean ====
/-
  The schedule of the 50 tiles, and that they cover the output array.

  Point `t` of the grid stages tile `t` (rows `2000·t … 2000·t + 1999`) of the aggregate and of the node features,
  the one whole block of each matrix and of the bias row, and writes back tile `t` of the output.  Node `r` lies in
  the tile of point `r / 2000`, so the tiles cover all 100000 rows.
-/
import proofs.«107754_j50912542326918_2_alg».proof.Proof.Gen.KernelIdeal.Value

noncomputable section

namespace Cert.KernelIdeal.Cover

open Cert.KernelIdeal Cert.KernelIdeal.Gen Idealize.ShloMosaic Idealize.ShloMosaic.TcCoe Idealize.SL.Sem

/-- Every access of the body starts at the origin of its buffer. -/
theorem origin : (![0, 0] : Fin 2 → Nat) = fun _ => 0 := funext fun a => by fin_cases a <;> rfl

/-- The block index maps, decided over the 50 points: the aggregate's, the node features' and the output's tile is
    the point's own; the matrices and the bias row are always their one whole block. -/
theorem tiles : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The grid's points are numbered below 50. -/
theorem point_lt (t : Fin cfg0.N) : t.val < 50 := lt_of_lt_of_eq t.isLt N_0

/-- An index of the output array is in point `t`'s tile iff each coordinate is in the tile's range on its axis. -/
theorem mem_tile (t : Fin cfg0.N) (i : S100000x64.Idx) :
    i ∈ ((cfg0.win 5).blk t).view.set ↔ ∀ a : Fin 2, win0_5.index t a * S2000x64.size a ≤ (i a).val
      ∧ (i a).val < win0_5.index t a * S2000x64.size a + S2000x64.size a := by
  show i ∈ ((View.whole main_v15).slice (win0_5.rect t)).set ↔ _
  rw [View.set_slice_whole, Rect.mem_set_unit]
  exact Iff.rfl

/-- THE TILES COVER THE ARRAY: node `r` lies in the tile of point `r / 2000`. -/
theorem cover (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ : ∃ t : Fin cfg0.N, t.val = (i 0).val / 2000 :=
    ⟨⟨(i 0).val / 2000, by rw [show cfg0.N = 50 from N_0]; omega⟩, rfl⟩
  obtain ⟨a0, a1, x0, x1, w0, w1, s0, s1, b0, b1, o0, o1⟩ := tiles t
  refine ⟨t, flush0_5 t, ?_⟩
  rw [mem_tile]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 64 ≤ (i 1).val ∧ (i 1).val < win0_5.index t (1 : Fin 2) * 64 + 64
    omega

end Cert.KernelIdeal.Cover

end
-- ==== Proof.Whole.lean ====
/-
  From tiles to the whole output array.

  The grid has 50 points; point `t` stages rows `2000·t … 2000·t + 1999` of the aggregate and of the node features,
  the two whole matrices and the whole bias row, and writes back rows `2000·t … 2000·t + 1999` of the output.  So what
  point `t` writes is tile `t` of ONE function of the arrays the region finds — the layer (`Layer.out`) —, row `p` of the
  tile being node `2000·t + p`; the 50 tiles cover all 100000 rows (`Cover`), hence the output array ends holding the
  layer.  Read with what the region finds in the arrays that host operations wrote (`Found`), that is the kernel's run
  with its result named.

  The per-tile statement is proved for ARBITRARY contents of the five staged arrays: what the region finds in them is
  a long composition of host operations, which is substituted only at the end and never looked into.
-/
import proofs.«107754_j50912542326918_2_alg».proof.Proof.Gen.KernelIdeal.Value
import proofs.«107754_j50912542326918_2_alg».proof.Proof.Layer
import proofs.«107754_j50912542326918_2_alg».proof.Proof.Tile
import proofs.«107754_j50912542326918_2_alg».proof.Proof.Found
import proofs.«107754_j50912542326918_2_alg».proof.Proof.Cover

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

/-- A tile's result at row `p`, column `q`, when the tile's loads are rows of whole arrays: if rows `p` of the two
    loaded tiles are rows `P` of `A` and `X`, and the loaded matrices and bias row are `W`, `S`, `B` along column `q`, the
    result is the layer's entry at node `P`, feature `q`. -/
theorem tile_entry (A X : FVec Ideal Cert.Layer.Nodes .f32) (W S : FVec Ideal Cert.Layer.Mat .f32) (B : FVec Ideal S1x64 .f32)
    (a x : Vec Ideal S2000x64 .f32) (w s : Vec Ideal S64x64 .f32) (b : Vec Ideal S1x64 .f32)
    (P : Fin 100000) (p : Fin 2000) (q : Fin 64)
    (ha : ∀ k : Fin 64, a (ix2 p k) = A (ix2 P k)) (hx : ∀ k : Fin 64, x (ix2 p k) = X (ix2 P k))
    (hw : ∀ k : Fin 64, w (ix2 k q) = W (ix2 k q)) (hs : ∀ k : Fin 64, s (ix2 k q) = S (ix2 k q))
    (hb : b (ix2 0 q) = B (ix2 0 q)) :
    k0_pay1 (F := Ideal) a x w s b (ix2 p q)
      = Cert.Layer.entry A X W S (fun j => B (ix2 0 (j 0))) P q := by
  refine (Tile.pay_entry a x w s b p q).trans ?_
  unfold Cert.Layer.entry
  exact congrArg₂ (· + ·)
    (congrArg₂ (· + ·) (Finset.sum_congr rfl fun k _ => by rw [ha k, hw k])
      (Finset.sum_congr rfl fun k _ => by rw [hx k, hs k])) hb

/-- WHAT THE BODY LEAVES AT POINT `t`, for any contents `A0 … A4` of the five staged arrays: run on the arrays' blocks at
    `t`, the body's result is tile `t` of the layer of `A0 … A4`. -/
theorem tile_written (c : Dev nD) (t : Fin cfg0.N)
    (A0 : Buf (Elt Ideal) ((c : Thread nD τ).loc (Pipeline.arrRef spec0 0)))
    (A1 : Buf (Elt Ideal) ((c : Thread nD τ).loc (Pipeline.arrRef spec0 1)))
    (A2 : Buf (Elt Ideal) ((c : Thread nD τ).loc (Pipeline.arrRef spec0 2)))
    (A3 : Buf (Elt Ideal) ((c : Thread nD τ).loc (Pipeline.arrRef spec0 3)))
    (A4 : Buf (Elt Ideal) ((c : Thread nD τ).loc (Pipeline.arrRef spec0 4))) :
    (cfg0.win 5).cut (grid0.coords t)
        (out0_5 (((cfg0.win 0).blk t).view.read (Elt Ideal) A0) (((cfg0.win 1).blk t).view.read (Elt Ideal) A1)
          (((cfg0.win 2).blk t).view.read (Elt Ideal) A2) (((cfg0.win 3).blk t).view.read (Elt Ideal) A3)
          (((cfg0.win 4).blk t).view.read (Elt Ideal) A4))
      = ((cfg0.win 5).blk t).view.read (Elt Ideal) (Cert.Layer.out A0 A1 A2 A3 (fun j => A4 (ix2 0 (j 0)))) := by
  unfold out0_5
  rw [View.canon_unit_zero Cover.origin]
  simp only [View.ld_unit_zero (S := S2000x64) Cover.origin, View.ld_unit_zero (S := S64x64) Cover.origin,
    View.ld_unit_zero (S := S1x64) Cover.origin]
  obtain ⟨a0, a1, x0, x1, w0, w1, s0, s1, b0, b1, o0, o1⟩ := Cover.tiles t
  have ht : t.val < 50 := Cover.point_lt t
  funext j
  obtain ⟨p, q, rfl⟩ : ∃ (p : Fin 2000) (q : Fin 64), j = ix2 p q := ⟨j 0, j 1, eq_ix2 j⟩
  have hp : p.val < 2000 := p.isLt
  have hq : q.val < 64 := q.isLt
  have hemb : ((cfg0.win 5).blk t).view.emb (ix2 p q) = ix2 (⟨t.val * 2000 + p.val, by omega⟩ : Fin 100000) q := by
    funext a; apply Fin.ext
    match a with
    | ⟨0, _⟩ => show win0_5.index t (0 : Fin 2) * 2000 + 1 * p.val = t.val * 2000 + p.val; omega
    | ⟨1, _⟩ => show win0_5.index t (1 : Fin 2) * 64 + 1 * q.val = q.val; omega
  refine (tile_entry A0 A1 A2 A3 A4
    (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4)
    (⟨t.val * 2000 + p.val, by omega⟩ : Fin 100000) p q ?_ ?_ ?_ ?_ ?_).trans ?_
  · intro k
    have hk : k.val < 64 := k.isLt
    show A0 (((cfg0.win 0).blk t).view.emb (ix2 p k)) = _
    refine congrArg A0 (funext fun a => Fin.ext ?_)
    match a with
    | ⟨0, _⟩ => show win0_0.index t (0 : Fin 2) * 2000 + 1 * p.val = t.val * 2000 + p.val; omega
    | ⟨1, _⟩ => show win0_0.index t (1 : Fin 2) * 64 + 1 * k.val = k.val; omega
  · intro k
    have hk : k.val < 64 := k.isLt
    show A1 (((cfg0.win 1).blk t).view.emb (ix2 p k)) = _
    refine congrArg A1 (funext fun a => Fin.ext ?_)
    match a with
    | ⟨0, _⟩ => show win0_1.index t (0 : Fin 2) * 2000 + 1 * p.val = t.val * 2000 + p.val; omega
    | ⟨1, _⟩ => show win0_1.index t (1 : Fin 2) * 64 + 1 * k.val = k.val; omega
  · intro k
    have hk : k.val < 64 := k.isLt
    show A2 (((cfg0.win 2).blk t).view.emb (ix2 k q)) = _
    refine congrArg A2 (funext fun a => Fin.ext ?_)
    match a with
    | ⟨0, _⟩ => show win0_2.index t (0 : Fin 2) * 64 + 1 * k.val = k.val; omega
    | ⟨1, _⟩ => show win0_2.index t (1 : Fin 2) * 64 + 1 * q.val = q.val; omega
  · intro k
    have hk : k.val < 64 := k.isLt
    show A3 (((cfg0.win 3).blk t).view.emb (ix2 k q)) = _
    refine congrArg A3 (funext fun a => Fin.ext ?_)
    match a with
    | ⟨0, _⟩ => show win0_3.index t (0 : Fin 2) * 64 + 1 * k.val = k.val; omega
    | ⟨1, _⟩ => show win0_3.index t (1 : Fin 2) * 64 + 1 * q.val = q.val; omega
  · show A4 (((cfg0.win 4).blk t).view.emb (ix2 0 q)) = _
    refine congrArg A4 (funext fun a => Fin.ext ?_)
    match a with
    | ⟨0, _⟩ => show win0_4.index t (0 : Fin 2) * 1 + 1 * 0 = 0; omega
    | ⟨1, _⟩ => show win0_4.index t (1 : Fin 2) * 64 + 1 * q.val = q.val; omega
  · show _ = Cert.Layer.out A0 A1 A2 A3 (fun j => A4 (ix2 0 (j 0))) (((cfg0.win 5).blk t).view.emb (ix2 p q))
    rw [hemb]
    rfl

variable (m : (ℓ : Loc nD τ sig) → Buf (Elt Ideal) ℓ) (ρ : Dev nD → PrngReg)

/-- WHAT POINT `t` WRITES BACK is tile `t` of the layer of the arrays as the region finds them. -/
theorem flushed_eq (c : Dev nD) (t : Fin cfg0.N) :
    (dats m 0 c).flushed 5 t = ((cfg0.win 5).blk t).view.read (Elt Ideal)
      (Cert.Layer.out (V m c (Pipeline.arrRef spec0 0)) (V m c (Pipeline.arrRef spec0 1)) (V m c (Pipeline.arrRef spec0 2))
        (V m c (Pipeline.arrRef spec0 3)) (fun j => V m c (Pipeline.arrRef spec0 4) (ix2 0 (j 0)))) := by
  rw [Value.flushed5]
  unfold iblk
  exact tile_written c t _ _ _ _ _

/-- THE OUTPUT ARRAY after the run is the layer of the arrays as the region finds them. -/
theorem final (c : Dev nD) :
    (dats m 0 c).arrAt 5 cfg0.N
      = Cert.Layer.out (V m c (Pipeline.arrRef spec0 0)) (V m c (Pipeline.arrRef spec0 1)) (V m c (Pipeline.arrRef spec0 2))
          (V m c (Pipeline.arrRef spec0 3)) (fun j => V m c (Pipeline.arrRef spec0 4) (ix2 0 (j 0))) :=
  (dats m 0 c).arrAt_eq_of_cover 5 _ (fun t _ => flushed_eq m c t) Cover.cover

/-- The same over the launch contents: the layer of the aggregate (of the node features and the edge list), the node
    features, the two matrices and the bias. -/
theorem final_args (c : Dev nD) :
    (dats m 0 c).arrAt 5 cfg0.N
      = Cert.Layer.out (Found.aggregate (F := Ideal) (m ((c.tc : Thread nD τ).loc main_arg0)) (m ((c.tc : Thread nD τ).loc main_arg1)))
          (m ((c.tc : Thread nD τ).loc main_arg0)) (m ((c.tc : Thread nD τ).loc main_arg2))
          (m ((c.tc : Thread nD τ).loc main_arg3)) (m ((c.tc : Thread nD τ).loc main_arg4)) := by
  have e0 : V m c (Pipeline.arrRef spec0 0)
      = Found.aggregate (F := Ideal) (m ((c.tc : Thread nD τ).loc main_arg0)) (m ((c.tc : Thread nD τ).loc main_arg1)) :=
    Found.agg_found m c
  have e1 : V m c (Pipeline.arrRef spec0 1) = m ((c.tc : Thread nD τ).loc main_arg0) := V_main_arg0 m c
  have e2 : V m c (Pipeline.arrRef spec0 2) = m ((c.tc : Thread nD τ).loc main_arg2) := V_main_arg2 m c
  have e3 : V m c (Pipeline.arrRef spec0 3) = m ((c.tc : Thread nD τ).loc main_arg3) := V_main_arg3 m c
  have e4 : V m c (Pipeline.arrRef spec0 4) = shapeCast _ (m ((c.tc : Thread nD τ).loc main_arg4)) shapeCasts_S64_S1x64 :=
    Found.bias_found m c
  have hb : (fun j : S64.Idx => V m c (Pipeline.arrRef spec0 4) (ix2 0 (j 0))) = m ((c.tc : Thread nD τ).loc main_arg4) := by
    funext j
    rw [e4]
    exact (Found.bias_row (m ((c.tc : Thread nD τ).loc main_arg4)) (j 0)).trans (congrArg _ (eq_ix1 j).symm)
  rw [final, hb, e0, e1, e2, e3]

/-- THE KERNEL'S RUN with its result named: the layer of the launch contents; the arguments unchanged. -/
theorem run : θ_run defs (onTc (τ := τ) (main (F := Ideal))) ⟨m, fun _ => 0, ρ⟩ fun r => ∀ c : Dev nD,
      r.2.mem ((c : Thread nD τ).loc main_v15)
        = Cert.Layer.out (Found.aggregate (F := Ideal) (m ((c.tc : Thread nD τ).loc main_arg0)) (m ((c.tc : Thread nD τ).loc main_arg1)))
            (m ((c.tc : Thread nD τ).loc main_arg0)) (m ((c.tc : Thread nD τ).loc main_arg2))
            (m ((c.tc : Thread nD τ).loc main_arg3)) (m ((c.tc : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_args m c), (h c).2⟩) (Value.run_blocks m ρ)

end Cert.KernelIdeal.Whole

end
-- ==== Proof.RefLayer.lean ====
/-
  The reference program's result is one layer of its own aggregate.

  The reference forms the aggregate `a` (a gather of source rows scatter-added at the destination rows: the stage
  `val_main_v13`, which this module never opens), then `a · w` and `x · s` as two whole products, their sum, and the bias
  broadcast over the nodes, added last.  Read one operation at a time at node `p`, feature `q`, each product is the
  length-64 inner product of a row with a column and the broadcast bias is the row's entry `q`: `Layer.entry`.
-/
import proofs.«107754_j50912542326918_2_alg».proof.Proof.Gen.ReferenceIdeal.Read
import proofs.«107754_j50912542326918_2_alg».proof.Proof.Layer

noncomputable section

namespace Cert.ReferenceIdeal.Dense

open Cert.ReferenceIdeal Cert.ReferenceIdeal.Read Idealize.ShloMosaic Idealize.ShloMosaic.ValueIdx

/-- Row `p` of the left factor of either product, at contraction position `k`. -/
theorem lidx14 (p : Fin 100000) (q k : Fin 64) : lidx_main_v14 (ix2 p q) k = ix2 p k :=
  funext fun a => Fin.ext (by match a with | ⟨0, _⟩ => rfl | ⟨1, _⟩ => rfl)
/-- Column `q` of the right factor, at contraction position `k`. -/
theorem ridx14 (p : Fin 100000) (q k : Fin 64) : ridx_main_v14 (ix2 p q) k = ix2 k q :=
  funext fun a => Fin.ext (by match a with | ⟨0, _⟩ => rfl | ⟨1, _⟩ => rfl)
theorem lidx15 (p : Fin 100000) (q k : Fin 64) : lidx_main_v15 (ix2 p q) k = ix2 p k :=
  funext fun a => Fin.ext (by match a with | ⟨0, _⟩ => rfl | ⟨1, _⟩ => rfl)
theorem ridx15 (p : Fin 100000) (q k : Fin 64) : ridx_main_v15 (ix2 p q) k = ix2 k q :=
  funext fun a => Fin.ext (by match a with | ⟨0, _⟩ => rfl | ⟨1, _⟩ => rfl)
/-- The bias broadcast over the nodes reads the bias at the feature coordinate alone. -/
theorem bias_idx (p : Fin 100000) (q : Fin 64) : idx_main_v17 (idx_main_v18 (ix2 p q)) = ix1 q :=
  funext fun a => Fin.ext (by match a with | ⟨0, _⟩ => rfl)

/-- THE REFERENCE'S RESULT is the layer of its own aggregate, the node features, the two matrices and the bias. -/
theorem result_eq (x0 : (⟨S100000x64, .f32⟩ : BufTy).Contents (Elt Ideal)) (x1 : (⟨S2x1600000, .i32⟩ : BufTy).Contents (Elt Ideal))
    (x2 x3 : (⟨S64x64, .f32⟩ : BufTy).Contents (Elt Ideal)) (x4 : (⟨S64, .f32⟩ : BufTy).Contents (Elt Ideal)) :
    val_main_v19 (F := Ideal) x0 x1 x2 x3 x4 = Cert.Layer.out (val_main_v13 (F := Ideal) x0 x1) x0 x2 x3 x4 := by
  funext i
  obtain ⟨p, q, rfl⟩ : ∃ (p : Fin 100000) (q : Fin 64), i = ix2 p q := ⟨i 0, i 1, eq_ix2 i⟩
  rw [val_main_v19_apply, val_main_v16_apply, val_main_v14_apply, val_main_v15_apply, val_main_v18_apply,
    val_main_v17_apply]
  simp only [lidx14, ridx14, lidx15, ridx15, bias_idx, Ideal.addf_def]
  rfl

end Cert.ReferenceIdeal.Dense

end
-- ==== Proof.SameAggregate.lean ====
/-
  Both programs form the aggregate by the same operations.

  The kernel's host prefix and the reference begin with the same eighteen operations on the node features and the edge
  list — the two rows of the edge list, the wrap of negative source indices, the gather of source rows, the
  scatter-add at the destinations into zeros —, printed once per program over that program's own copies of the
  shapes and dimension records.  The copies have the same fields, so the two aggregates are the same function, by
  unfolding alone: neither the gather nor the scatter-add is ever read at an index.
-/
import proofs.«107754_j50912542326918_2_alg».proof.Proof.Found
import proofs.«107754_j50912542326918_2_alg».proof.Proof.Gen.ReferenceIdeal.Read

noncomputable section

namespace Cert.SameAggregate

open Idealize.ShloMosaic

/-- The kernel's aggregate (as its region finds it) is the reference's aggregate stage, as functions of the node
    features and the edge list. -/
theorem aggregate_eq (x : (⟨Cert.KernelIdeal.S100000x64, .f32⟩ : BufTy).Contents (Elt Ideal))
    (e : (⟨Cert.KernelIdeal.S2x1600000, .i32⟩ : BufTy).Contents (Elt Ideal)) :
    Cert.KernelIdeal.Found.aggregate (F := Ideal) x e = Cert.ReferenceIdeal.Read.val_main_v13 (F := Ideal) x e := rfl

end Cert.SameAggregate

end
-- ==== Proof.lean ====
/-
  The certificate of one graph-convolution layer: `out = A·x @ weight + x @ self_loops + bias` over 100000 nodes and
  64 features, where `A·x` sums, at every node, the feature rows of the sources of its incoming edges.

  THE KERNEL forms the aggregate `A·x` on the host (gather of source rows, scatter-add at the destinations) and then
  runs the dense part tile by tile: 50 grid points, each loading 2000 rows of the aggregate and of `x`, the two whole
  64 × 64 matrices and the bias row, narrowing the matrices' format, multiplying into zero accumulators, adding the two
  products and the bias, and writing 2000 rows of the output.  THE REFERENCE forms the same aggregate by the same host
  operations and computes the dense part as two whole products, their sum, and the broadcast bias.

  Over the extended reals a change of float format is the identity and a product into a zero accumulator is the plain
  sum of products, so both programs compute, at node `p` and feature `q`,

      (∑ k, (A·x)[p, k] · weight[k, q]  +  ∑ k, x[p, k] · self_loops[k, q])  +  bias[q]

  with the same grouping (`Layer.entry`).  The proof is therefore a reading, not an algebraic argument: the tile's
  result at an entry (`Tile`), the tiles covering the array (`Whole`), the arrays the host wrote before the launch
  (`Found`), the reference read one operation at a time (`RefLayer`), and the two aggregates being one function
  (`SameAggregate`).  No finiteness of the inputs is used.  The ideal pass rewrote nothing, so the kernel's
  idealization is its own text read over the extended reals and `preserves` has no conjunct.
-/
import proofs.«107754_j50912542326918_2_alg».proof.Defs
import proofs.«107754_j50912542326918_2_alg».proof.Proof.Gen.Kernel
import proofs.«107754_j50912542326918_2_alg».proof.Proof.Gen.Kernel.Skeleton
import proofs.«107754_j50912542326918_2_alg».proof.Proof.Gen.Kernel.Launch
import proofs.«107754_j50912542326918_2_alg».proof.Proof.Gen.Kernel.Points
import proofs.«107754_j50912542326918_2_alg».proof.Proof.Gen.Kernel.Frame
import proofs.«107754_j50912542326918_2_alg».proof.Proof.Gen.KernelIdeal
import proofs.«107754_j50912542326918_2_alg».proof.Proof.Gen.KernelIdeal.Skeleton
import proofs.«107754_j50912542326918_2_alg».proof.Proof.Gen.KernelIdeal.Launch
import proofs.«107754_j50912542326918_2_alg».proof.Proof.Gen.KernelIdeal.Points
import proofs.«107754_j50912542326918_2_alg».proof.Proof.Gen.KernelIdeal.Frame
import proofs.«107754_j50912542326918_2_alg».proof.Proof.Gen.ReferenceIdeal
import proofs.«107754_j50912542326918_2_alg».proof.Proof.Gen.Pre_finite_inputs
import proofs.«107754_j50912542326918_2_alg».proof.Proof.Gen.KernelIdeal.Value
import proofs.«107754_j50912542326918_2_alg».proof.Proof.Gen.ReferenceIdeal.Run
import proofs.«107754_j50912542326918_2_alg».proof.Proof.Gen.ReferenceIdeal.Read
import proofs.«107754_j50912542326918_2_alg».proof.Proof.Layer
import proofs.«107754_j50912542326918_2_alg».proof.Proof.Tile
import proofs.«107754_j50912542326918_2_alg».proof.Proof.Found
import proofs.«107754_j50912542326918_2_alg».proof.Proof.Whole
import proofs.«107754_j50912542326918_2_alg».proof.Proof.RefLayer
import proofs.«107754_j50912542326918_2_alg».proof.Proof.SameAggregate
import Idealize.ShloMosaic.Adequacy
import Idealize.ShloMosaic.Init

noncomputable section

namespace Cert.Proof

open Idealize.ShloMosaic Idealize.SL.Sem

/-- The word-level kernel runs, faults nowhere and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments, the kernel's output array and the reference's result are both the layer
    of the same aggregate, node features, matrices and bias. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.ReferenceIdeal.Dense.result_eq,
    (hagree c).1, (hagree c).2.1, (hagree c).2.2.1, (hagree c).2.2.2.1, (hagree c).2.2.2.2,
    Cert.SameAggregate.aggregate_eq]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
